-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S40x64 : Shape := ⟨2, ![40, 64]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S40x64 : S_.BroadcastsInDim S40x64 (![] : Fin 0 → Fin S40x64.rank)
  reducesTo_S40x64_S_d0_1 : S40x64.ReducesTo [0, 1] S_
  bcast_S_S40 : S_.BroadcastsInDim S40 (![] : Fin 0 → Fin S40.rank)
  reducesTo_S40_S_d0 : S40.ReducesTo [0] S_

variable [Facts]

def fn {F : FTy → Type} [FloatOps F] (main_arg0 : FVec F S100000x64 .f32) (main_arg1 : IVec S2x1600000 32) (main_arg2 : FVec F S40x64 .f32) (main_arg3 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S40x64 .f32 := Host.absf main_arg2
  let main_cst_0 : FVec F S_ .f32 := constant S_ .f32 0x7F800000#32
  let main_v5 : FVec F S40x64 .f32 := broadcastInDim S40x64 ![] bcast_S_S40x64 main_cst_0
  let main_v6 : IVec S40x64 1 := cmpf .olt main_v4 main_v5
  let main_c_1 : IVec S_ 1 := constantI S_ 1 1#1
  let main_v7 : IVec S_ 1 := (fun x v => Host.reduce IntOp.andi x v reducesTo_S40x64_S_d0_1 h_S_) main_v6 main_c_1
  let main_v8 : IVec S_ 1 := andi main_v3 main_v7
  let main_v9 : FVec F S40 .f32 := Host.absf main_arg3
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  main_v13
-- ==== Kernel.lean ====
abbrev S100000x64 : Shape := ⟨2, ![100000, 64]⟩
abbrev S2x1600000 : Shape := ⟨2, ![2, 1600000]⟩
abbrev S40x64 : Shape := ⟨2, ![40, 64]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x40 : Shape := ⟨2, ![1, 40]⟩
abbrev S100000x40 : Shape := ⟨2, ![100000, 40]⟩
abbrev S10000x64 : Shape := ⟨2, ![10000, 64]⟩
abbrev S10000x40 : Shape := ⟨2, ![10000, 40]⟩
abbrev S10000 : Shape := ⟨1, ![10000]⟩
abbrev S10000x1 : Shape := ⟨2, ![10000, 1]⟩

abbrev nBuf : Space → Nat
  | .hbm => 78
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S40x64, .f32⟩
  | .hbm, ⟨3, _⟩ => ⟨S40, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x64, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S1700000x1, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x64, .f32⟩
  | .hbm, ⟨70, _⟩ => ⟨S1700000x64, .f32⟩
  | .hbm, ⟨71, _⟩ => ⟨S1700000x64, .f32⟩
  | .hbm, ⟨72, _⟩ => ⟨S_, .f32⟩
  | .hbm, ⟨73, _⟩ => ⟨S100000x64, .f32⟩
  | .hbm, ⟨74, _⟩ => ⟨S1700000x1, .i32⟩
  | .hbm, ⟨75, _⟩ => ⟨S100000x64, .f32⟩
  | .hbm, ⟨76, _⟩ => ⟨S1x40, .f32⟩
  | .hbm, ⟨77, _⟩ => ⟨S100000x40, .f32⟩
  | .local _ .vmem, ⟨0, _⟩ => ⟨S10000x64, .f32⟩
  | .local _ .vmem, ⟨1, _⟩ => ⟨S10000x64, .f32⟩
  | .local _ .vmem, ⟨2, _⟩ => ⟨S40x64, .f32⟩
  | .local _ .vmem, ⟨3, _⟩ => ⟨S1x40, .f32⟩
  | .local _ .vmem, ⟨4, _⟩ => ⟨S10000x40, .f32⟩
  | .local _ .vmem, ⟨5, _⟩ => ⟨S10000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x40 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S40_S1x40 : S40.ShapeCasts S1x40
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S40x64_S40x64_0_0 : ∀ a, (![0, 0] : Fin 2 → Nat) a + S40x64.size a ≤ S40x64.size a
  h_S40x64 : 0 < S40x64.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  inb_S10000x40_S10000x40_0_0 : ∀ a, (![0, 0] : Fin 2 → Nat) a + S10000x40.size a ≤ S10000x40.size a
  h_S10000x40 : 0 < S10000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S40x64_S10000x40_1_1_0_0_n_n_wf : DotDims.WF S10000x64 S40x64 S10000x40 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x64.size a ≤ S40x64.size a
  hwx0_1 : ∀ i : grid0.Coords, EltTy.bits .f32 = 32 ∨ (Rect.block (s := S40x64) S40x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x40.size a ≤ S1x40.size a
  hwx0_2 : ∀ i : grid0.Coords, EltTy.bits .f32 = 32 ∨ (Rect.block (s := S1x40) S1x40.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x40.size a ≤ S100000x40.size a
  hwx0_3 : ∀ i : grid0.Coords, EltTy.bits .f32 = 32 ∨ (Rect.block (s := S100000x40) S10000x40.size (cc0_transform_3 i) (hinb0_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S40x64_S10000x40_1_1_0_0_n_n : DotDims S10000x64 S40x64 S10000x40 where
  lhsContracting := [1]
  rhsContracting := [1]
  lhsNonContracting := [0]
  rhsNonContracting := [0]
  lhsBatch := []
  rhsBatch := []
  wf := dot_S10000x64_S40x64_S10000x40_1_1_0_0_n_n_wf

abbrev win0_0 : Pipeline.Window sig grid0 :=
  Pipeline.Window.ofSpec (Memref.whole main_v55) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S40x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v56) S1x40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v57) S10000x40.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S40x64 : Shape := ⟨2, ![40, 64]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S64x40 : Shape := ⟨2, ![64, 40]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 96
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S40x64, .f32⟩
  | .hbm, ⟨3, _⟩ => ⟨S40, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x64, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S1700000x1, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x64, .f32⟩
  | .hbm, ⟨70, _⟩ => ⟨S1700000x64, .f32⟩
  | .hbm, ⟨71, _⟩ => ⟨S1700000x64, .f32⟩
  | .hbm, ⟨72, _⟩ => ⟨S_, .f32⟩
  | .hbm, ⟨73, _⟩ => ⟨S100000x64, .f32⟩
  | .hbm, ⟨74, _⟩ => ⟨S1700000x1, .i32⟩
  | .hbm, ⟨75, _⟩ => ⟨S100000x64, .f32⟩
  | .hbm, ⟨76, _⟩ => ⟨S64x40, .f32⟩
  | .hbm, ⟨77, _⟩ => ⟨S100000x40, .f32⟩
  | .hbm, ⟨78, _⟩ => ⟨S1x40, .f32⟩
  | .hbm, ⟨79, _⟩ => ⟨S100000x40, .f32⟩
  | .hbm, ⟨80, _⟩ => ⟨S100000x40, .f32⟩
  | .hbm, ⟨81, _⟩ => ⟨S_, .f32⟩
  | .hbm, ⟨82, _⟩ => ⟨S100000, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S100000x1, .f32⟩
  | .hbm, ⟨87, _⟩ => ⟨S100000x40, .f32⟩
  | .hbm, ⟨88, _⟩ => ⟨S100000x40, .f32⟩
  | .hbm, ⟨89, _⟩ => ⟨S100000x40, .f32⟩
  | .hbm, ⟨90, _⟩ => ⟨S_, .f32⟩
  | .hbm, ⟨91, _⟩ => ⟨S100000, .f32⟩
  | .hbm, ⟨92, _⟩ => ⟨S100000x1, .f32⟩
  | .hbm, ⟨93, _⟩ => ⟨S100000x1, .f32⟩
  | .hbm, ⟨94, _⟩ => ⟨S100000x40, .f32⟩
  | .hbm, ⟨95, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v61 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  transposes_S40x64_S64x40_1_0 : S40x64.Transposes [1, 0] S64x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.LibMatmulABt.lean ====
/-
  A matrix product against a transposed right operand, read at coordinates, over the extended reals.

  Both operands carry the shared axis as their SECOND axis: the left operand is `[m, k]`, the right one `[n, k]`,
  and the result `[m, n]` at `(p, q)` is the inner product of row `p` of the left operand with row `q` of the
  right one — the product `A · Bᵀ`. Into the zero accumulator nothing else is added, so the entry is exactly
  `∑ c, A (p, c) · B (q, c)`. Stated for any extents `m`, `k`, `n`; a product record of a program with these
  dimension numbers unfolds to `abtDims`.
-/
import Idealize.ShloMosaic.Lib.ValueIdx
import Idealize.ShloMosaic.PureOps.Ideal.Laws

noncomputable section

namespace Cert.LibMatmulABt

open Idealize.ShloMosaic Idealize.ShloMosaic.ValueIdx
open scoped BigOperators

/-- The dimension numbers of an `[m, k]` by `[n, k]` product contracted on the second axis of both operands, no batch
    axis: the result's rows are the left operand's rows, its columns the right operand's rows. -/
abbrev abtDims {m k n : Nat} (wf : DotDims.WF (⟨2, ![m, k]⟩ : Shape) ⟨2, ![n, k]⟩ ⟨2, ![m, n]⟩ [1] [1] [0] [0] [] []) :
    DotDims ⟨2, ![m, k]⟩ ⟨2, ![n, k]⟩ ⟨2, ![m, n]⟩ := ⟨[1], [1], [0], [0], [], [], wf⟩

section Abt
variable {m k n : Nat} (wf : DotDims.WF (⟨2, ![m, k]⟩ : Shape) ⟨2, ![n, k]⟩ ⟨2, ![m, n]⟩ [1] [1] [0] [0] [] [])

/-- The left operand is read in the result's row … -/
theorem abt_lhs_row (j : (⟨2, ![m, n]⟩ : Shape).Idx) (c : (abtDims wf).contr.Idx) :
    ((abtDims wf).lhsIdx j c 0).val = (j 0).val := by
  unfold DotDims.lhsIdx
  rw [dif_neg (show ¬(0 : Fin (⟨2, ![m, k]⟩ : Shape).rank) ∈ (abtDims wf).lhsBatch from List.not_mem_nil),
    dif_pos (show (0 : Fin (⟨2, ![m, k]⟩ : Shape).rank) ∈ (abtDims wf).lhsNonContracting from List.mem_singleton.mpr rfl)]
  rfl

/-- … and the right operand in the row named by the result's column. -/
theorem abt_rhs_row (j : (⟨2, ![m, n]⟩ : Shape).Idx) (c : (abtDims wf).contr.Idx) :
    ((abtDims wf).rhsIdx j c 0).val = (j 1).val := by
  unfold DotDims.rhsIdx
  rw [dif_neg (show ¬(0 : Fin (⟨2, ![n, k]⟩ : Shape).rank) ∈ (abtDims wf).rhsBatch from List.not_mem_nil),
    dif_pos (show (0 : Fin (⟨2, ![n, k]⟩ : Shape).rank) ∈ (abtDims wf).rhsNonContracting from List.mem_singleton.mpr rfl)]
  rfl

/-- The sum over the contraction index of such a product is the sum over the shared axis of the products of row `p`
    of the left operand and row `q` of the right one. -/
theorem sum_contr_abt {φ₁ φ₂ : FTy} (l : FVec Ideal ⟨2, ![m, k]⟩ φ₁) (r : FVec Ideal ⟨2, ![n, k]⟩ φ₂) (p : Fin m) (q : Fin n) :
    ∑ c : (abtDims wf).contr.Idx, l ((abtDims wf).lhsIdx (ix2 p q) c) * r ((abtDims wf).rhsIdx (ix2 p q) c)
      = ∑ c : Fin k, l (ix2 p c) * r (ix2 q c) := by
  rw [← Equiv.sum_comp (contrEquiv1 (abtDims wf) k rfl rfl).symm]
  refine Finset.sum_congr rfl fun c _ => ?_
  have hc := contrEquiv1_symm_val (abtDims wf) k rfl rfl c
  have el : (abtDims wf).lhsIdx (ix2 p q) ((contrEquiv1 (abtDims wf) k rfl rfl).symm c) = ix2 p c :=
    funext fun a => Fin.ext (by
      match a with
      | ⟨0, _⟩ => exact abt_lhs_row wf _ _
      | ⟨1, _⟩ => exact ((abtDims wf).lhsIdx_val_of_single rfl _ _).trans hc)
  have er : (abtDims wf).rhsIdx (ix2 p q) ((contrEquiv1 (abtDims wf) k rfl rfl).symm c) = ix2 q c :=
    funext fun a => Fin.ext (by
      match a with
      | ⟨0, _⟩ => exact abt_rhs_row wf _ _
      | ⟨1, _⟩ => exact ((abtDims wf).rhsIdx_val_of_single rfl _ _).trans hc)
  rw [el, er]

/-- Such a product into the zero accumulator reads, at `(p, q)`, the inner product of row `p` of the left operand and
    row `q` of the right one. -/
theorem matmul_zero_abt {φ₁ φ₂ : FTy} (l : FVec Ideal ⟨2, ![m, k]⟩ φ₁) (r : FVec Ideal ⟨2, ![n, k]⟩ φ₂)
    (p : Fin m) (q : Fin n) :
    FloatOps.matmul (abtDims wf) none l r (constant (F := Ideal) ⟨2, ![m, n]⟩ .f32 0x00000000#32) (ix2 p q)
      = ∑ c : Fin k, l (ix2 p c) * r (ix2 q c) := by
  rw [Ideal.matmul_constant_zero_apply]
  exact sum_contr_abt wf l r p q

end Abt

end Cert.LibMatmulABt

end
-- ==== Proof.LibRowMax.lean ====
/-
  The maximum along the rows of a matrix, read at a row, over the extended reals.

  A kernel takes the maximum of an `[a, b]` block over its second axis by a fold of `max` from the accumulator's
  value; the host takes it by a one-operand reduction whose body is `max`, from its initial value. Both fold a
  commutative and associative operation over the `b` entries of row `p`, so read at `p` both are the fold of `max`
  over `k ↦ x (p, k)`, whatever order the definitions walk the entries in. Stated for any extents `a`, `b`.
-/
import Idealize.ShloMosaic.Lib.ValueIdx
import Idealize.ShloMosaic.PureOps.Ideal.Laws

noncomputable section

namespace Cert.LibRowMax

open Idealize.ShloMosaic Idealize.ShloMosaic.ValueIdx

/-- The source index a reduction over the second axis reads for result row `p` and coordinate `k` is `(p, k)`. -/
theorem lift_row {a b : ℕ} (h : Shape.Reduces ⟨2, ![a, b]⟩ [1] ⟨1, ![a]⟩) (p : Fin a)
    (k : Fin ((⟨2, ![a, b]⟩ : Shape).size 1)) : h.lift (ix1 p) k = ix2 p (⟨k.val, k.isLt⟩ : Fin b) :=
  funext fun ax => Fin.ext (by
    match ax with
    | ⟨0, _⟩ => rfl
    | ⟨1, _⟩ => rfl)

/-- A kernel's maximum of an `[a, b]` block over its second axis is, at row `p`, the fold of `max` from the
    accumulator's value over the `b` entries of that row. -/
theorem multiReduction_maximumf_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_row h p k)))

/-- The host's reduction with body `max` of an `[a, b]` array over its second axis is, at row `p`, the fold of `max`
    from the initial value over the `b` entries of that row. -/
theorem hostReduce_maximumf_row {a b : ℕ} {φ : FTy} {u : Shape} (x : FVec Ideal ⟨2, ![a, b]⟩ φ) (init : u.Idx → Ideal φ)
    (h' : Shape.ReducesTo ⟨2, ![a, b]⟩ [1] ⟨1, ![a]⟩) (h : Shape.Reduces ⟨2, ![a, b]⟩ [1] ⟨1, ![a]⟩) (hu : 0 < u.numel)
    (p : Fin a) :
    Host.reduce FloatOps.maximumf x init h' hu (ix1 p)
      = (Finset.univ : Finset (Fin b)).fold max (init (Shape.Idx.first hu)) (fun k => x (ix2 p k)) :=
  (Host.reduce_eq_fold_single FloatOps.maximumf x init h' h hu (ix1 p)).trans
    (congrArg (fun f => (Finset.univ : Finset (Fin b)).fold max (init (Shape.Idx.first hu)) f)
      (funext fun k => congrArg x (lift_row h p k)))

end Cert.LibRowMax

end
-- ==== Proof.RowSoftmax.lean ====
/-
  One row of a linear layer followed by a log-softmax, over the extended reals.

  A row `xr` of 64 features meets a `40 × 64` weight matrix `W` and a bias `b`: the logit of class `o` is
  `∑ k, xr k · W o k + b o`. The log-softmax of a row of 40 logits `l` subtracts the row's maximum `M` (the fold of
  `max` from `-∞` over the row) and then the logarithm of the sum of the exponentials of the shifted row:
  `(l o − M) − log (∑ q, exp (l q − M))`. Both programs of this certificate compute exactly this expression, with the
  operations in this order, so no law of the extended reals beyond `max (-∞) x = x` and `0 + x = x` is needed.
-/
import Idealize.ShloMosaic.PureOps.Ideal
import Idealize.ShloMosaic.PureOps.Ideal.Laws

noncomputable section

open scoped BigOperators

namespace Cert.RowSoftmax

open Idealize.ShloMosaic

/-- The value a row maximum starts from: the f32 pattern of `-∞`. -/
abbrev negInf : EReal := Ideal.ofBits .f32 0xFF800000#32

/-- That pattern is the least extended real. -/
theorem negInf_eq_bot : negInf = ⊥ := by
  simp [negInf, Ideal.ofBits, Ideal.ieee]

/-- Taking the maximum with `-∞` changes nothing. -/
theorem max_negInf (x : EReal) : max negInf x = x := by
  rw [negInf_eq_bot]; exact max_eq_right bot_le

/-- The logit of class `o`: the inner product of the feature row with row `o` of the weights, plus the bias. -/
def logit (xr : Fin 64 → EReal) (W : Fin 40 → Fin 64 → EReal) (b : Fin 40 → EReal) (o : Fin 40) : EReal :=
  (∑ k : Fin 64, xr k * W o k) + b o

/-- The maximum of a row of logits, folded from `-∞`. -/
def rowMax (l : Fin 40 → EReal) : EReal :=
  (Finset.univ : Finset (Fin 40)).fold max negInf l

/-- The log-softmax of a row of logits at class `o`. -/
def logSoftmax (l : Fin 40 → EReal) (o : Fin 40) : EReal :=
  (l o - rowMax l) - Ideal.log (∑ q : Fin 40, Ideal.exp (l q - rowMax l))

end Cert.RowSoftmax

end
-- ==== Proof.KernelBlock.lean ====
/-
  What the kernel's body stores, read at one entry of its block.

  The body loads a `10000 × 64` block of features, the whole `40 × 64` weight matrix and the bias as a `1 × 40` row.
  At the exact values the narrowing of both matrix operands is the identity, the matrix product into the zero
  accumulator is at `(p, q)` the inner product of feature row `p` with weight row `q`, and the bias row is repeated
  down the rows: the logits of row `p`. The row maximum (kept as a column and repeated along the row), the shifted
  row, the sum of its exponentials (kept and repeated the same way) and the final difference are then the row
  log-softmax of those logits at `q`.
-/
import proofs.«137526_j4569845203315_1_alg».proof.Proof.Gen.KernelIdeal.Skeleton
import proofs.«137526_j4569845203315_1_alg».proof.Proof.LibKeepdims
import proofs.«137526_j4569845203315_1_alg».proof.Proof.LibMatmulABt
import proofs.«137526_j4569845203315_1_alg».proof.Proof.LibRowMax
import proofs.«137526_j4569845203315_1_alg».proof.Proof.RowSoftmax
import Idealize.ShloMosaic.Lib.Pipeline.Value
import Idealize.ShloMosaic.Lib.ValueLayout

noncomputable section

open scoped BigOperators

namespace Cert.KernelIdeal.Block

open Cert.KernelIdeal Cert.KernelIdeal.Gen Idealize.ShloMosaic Idealize.ShloMosaic.ValueIdx Cert.RowSoftmax

/-- The logits of the block at `(p, q)`: the product of the (narrowed) feature block with the (narrowed) weights,
    contracted on the second axis of both, plus the bias row repeated down the rows. -/
theorem blockLogits_apply (x0 : FVec Ideal S10000x64 .f32) (x1 : FVec Ideal S40x64 .f32) (x2 : FVec Ideal S1x40 .f32)
    (wf : DotDims.WF S10000x64 S40x64 S10000x40 [1] [1] [0] [0] [] [])
    (h1 : S10000x64.ShapeCasts S10000x64) (h2 : FTy.bits .bf16 < FTy.bits .f32) (h4 : S1x40.ShapeCasts S1x40)
    (h5 : S1x40.Broadcasts S10000x40) (p : Fin 10000) (q : Fin 40) :
    addf (FloatOps.matmul (Cert.LibMatmulABt.abtDims wf) none (truncf .bf16 (shapeCast S10000x64 x0 h1) h2) (truncf .bf16 x1 h2)
        (constant (F := Ideal) S10000x40 .f32 0x00000000#32))
      (broadcastTo S10000x40 (shapeCast S1x40 x2 h4) h5) (ix2 p q)
      = logit (fun k => x0 (ix2 p k)) (fun o k => x1 (ix2 o k)) (fun o => x2 (ix2 (0 : Fin 1) o)) q := by
  rw [addf_apply, Cert.LibMatmulABt.matmul_zero_abt wf _ _ p q, broadcastTo_1b_ab_apply, shapeCast_self, shapeCast_self]
  rfl

/-- The row log-softmax of a block of logits `L`, as the body spells it: the row maximum from `-∞` kept as a column
    and repeated, the shifted block, the row sums of its exponentials kept and repeated, their logarithm subtracted. -/
theorem blockLogSoftmax_apply (L : FVec Ideal S10000x40 .f32)
    (hr : S10000x40.Reduces [1] S10000) (hφ : FKind.Formats .f32)
    (hmax : (0xFF800000#32 : BitVec 32) = FKind.maximumf.neutral .f32 hφ)
    (hadd : (0x00000000#32 : BitVec 32) = FKind.add.neutral .f32 hφ)
    (hc : S10000.ShapeCasts S10000x1) (hb : S10000x1.Broadcasts S10000x40) (p : Fin 10000) (q : Fin 40) :
    subf (subf L (broadcastTo S10000x40 (shapeCast S10000x1 (multiReduction .maximumf [1] S10000 L 0xFF800000#32 hr hφ hmax) hc) hb))
      (broadcastTo S10000x40 (log (shapeCast S10000x1 (multiReduction .add [1] S10000
        (exp (subf L (broadcastTo S10000x40 (shapeCast S10000x1 (multiReduction .maximumf [1] S10000 L 0xFF800000#32 hr hφ hmax) hc) hb)))
        0x00000000#32 hr hφ hadd) hc)) hb) (ix2 p q)
      = logSoftmax (fun o => L (ix2 p o)) q := by
  have hM : ∀ o : Fin 40,
      broadcastTo S10000x40 (shapeCast S10000x1 (multiReduction .maximumf [1] S10000 L 0xFF800000#32 hr hφ hmax) hc) hb (ix2 p o)
        = rowMax (fun o => L (ix2 p o)) := fun o => by
    rw [Cert.LibKeepdims.broadcastTo_a1_ab_apply, Cert.LibKeepdims.shapeCast_a_a1_apply,
      Cert.LibRowMax.multiReduction_maximumf_row]
    rfl
  rw [subf_apply, subf_apply, hM q, Cert.LibKeepdims.broadcastTo_a1_ab_apply]
  show _ - Ideal.log (shapeCast S10000x1 _ hc (ix2 p (0 : Fin 1))) = _
  rw [Cert.LibKeepdims.shapeCast_a_a1_apply, Cert.LibKeepdims.multiReduction_add_row]
  unfold logSoftmax
  refine congrArg (fun s => (L (ix2 p q) - rowMax fun o => L (ix2 p o)) - Ideal.log s) (Finset.sum_congr rfl fun k _ => ?_)
  show Ideal.exp (subf L _ (ix2 p k)) = _
  rw [subf_apply, hM k]

/-- The body's stored value at `(p, q)` is the row log-softmax, at `q`, of the logits of feature row `p`. -/
theorem pay_apply (x0 : Vec Ideal S10000x64 .f32) (x1 : Vec Ideal S40x64 .f32) (x2 : Vec Ideal S1x40 .f32)
    (p : Fin 10000) (q : Fin 40) :
    k0_pay1 (F := Ideal) x0 x1 x2 (ix2 p q)
      = logSoftmax (logit (fun k => x0 (ix2 p k)) (fun o k => x1 (ix2 o k)) (fun o => x2 (ix2 (0 : Fin 1) o))) q := by
  unfold k0_pay1
  refine (blockLogSoftmax_apply _ _ _ _ _ _ _ p q).trans ?_
  exact congrArg (fun l => logSoftmax l q) (funext fun o => blockLogits_apply x0 x1 x2 _ _ _ _ _ p o)

end Cert.KernelIdeal.Block

end
-- ==== Proof.KernelArray.lean ====
/-
  From the blocks to the array: what the kernel's result array holds after the run.

  The grid has ten points; point `t` reads rows `10000·t … 10000·t + 9999` of the propagated features, the whole weight
  matrix and the bias row, and writes back rows `10000·t … 10000·t + 9999` of the result. Row `p` of what it writes is
  the row log-softmax of the logits of feature row `10000·t + p`, so every block is the restriction of ONE function
  `rowsOut` of the arrays the region finds; the ten blocks cover the `100000` rows (row `r` lies in block `r / 10000`),
  hence the array ends holding `rowsOut`.
-/
import proofs.«137526_j4569845203315_1_alg».proof.Proof.Gen.KernelIdeal.Value
import proofs.«137526_j4569845203315_1_alg».proof.Proof.KernelBlock
import Idealize.ShloMosaic.Lib.Pipeline.Value
import Idealize.ShloMosaic.Lib.ValueIdx

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.RowSoftmax

variable (m : (ℓ : Loc nD τ sig) → Buf (Elt Ideal) ℓ) (ρ : Dev nD → PrngReg)

theorem hz : (![0, 0] : Fin 2 → Nat) = fun _ => 0 := funext fun a => by fin_cases a <;> rfl

/-- The result as one function of the propagated features `X`, the weights `W` and the bias row `b2`: entry
    `(r, o)` is the row log-softmax, at `o`, of the logits of feature row `r`. -/
def rowsOut (X : S100000x64.Idx → EReal) (W : S40x64.Idx → EReal) (b2 : S1x40.Idx → EReal) : S100000x40.Idx → EReal :=
  fun i => logSoftmax (logit (fun k => X (ix2 (⟨(i 0).val, (i 0).isLt⟩ : Fin 100000) k)) (fun o k => W (ix2 o k))
    (fun o => b2 (ix2 (0 : Fin 1) o))) (⟨(i 1).val, (i 1).isLt⟩ : Fin 40)

/-- The printed index maps over the ten points: the feature and result windows move down the rows with the point,
    the weights and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s feature block is row `10000·t + p` of the array. -/
theorem read_features (A : S100000x64.Idx → EReal) (t : Fin cfg0.N) (p : Fin 10000) (k : Fin 64) (r : Fin 100000)
    (hr : r.val = t.val * 10000 + p.val) :
    (((cfg0.win 0).blk t).view.read (Elt Ideal) A : Vec Ideal S10000x64 .f32) (ix2 p k) = A (ix2 r k) := by
  obtain ⟨e0, e1, -⟩ := idx_facts t
  show A (((cfg0.win 0).blk t).view.emb (ix2 p k)) = A (ix2 r k)
  refine congrArg A (funext fun a => Fin.ext ?_)
  match a with
  | ⟨0, _⟩ => show win0_0.index t (0 : Fin 2) * 10000 + 1 * p.val = r.val; rw [e0, hr]; omega
  | ⟨1, _⟩ => show win0_0.index t (1 : Fin 2) * 64 + 1 * k.val = k.val; rw [e1]; omega

/-- The weight window's block is the whole weight matrix. -/
theorem read_weights (A : S40x64.Idx → EReal) (t : Fin cfg0.N) (o : Fin 40) (k : Fin 64) :
    (((cfg0.win 1).blk t).view.read (Elt Ideal) A : Vec Ideal S40x64 .f32) (ix2 o k) = A (ix2 o k) := by
  obtain ⟨-, -, e0, e1, -⟩ := idx_facts t
  show A (((cfg0.win 1).blk t).view.emb (ix2 o k)) = A (ix2 o k)
  refine congrArg A (funext fun a => Fin.ext ?_)
  match a with
  | ⟨0, _⟩ => show win0_1.index t (0 : Fin 2) * 40 + 1 * o.val = o.val; rw [e0]; omega
  | ⟨1, _⟩ => show win0_1.index t (1 : Fin 2) * 64 + 1 * k.val = k.val; rw [e1]; omega

/-- The bias window's block is the whole bias row. -/
theorem read_bias (A : S1x40.Idx → EReal) (t : Fin cfg0.N) (o : Fin 40) :
    (((cfg0.win 2).blk t).view.read (Elt Ideal) A : Vec Ideal S1x40 .f32) (ix2 (0 : Fin 1) o) = A (ix2 (0 : Fin 1) o) := by
  obtain ⟨-, -, -, -, e0, e1, -⟩ := idx_facts t
  show A (((cfg0.win 2).blk t).view.emb (ix2 (0 : Fin 1) o)) = A (ix2 (0 : Fin 1) o)
  refine congrArg A (funext fun a => Fin.ext ?_)
  match a with
  | ⟨0, _⟩ => show win0_2.index t (0 : Fin 2) * 1 + 1 * 0 = 0; rw [e0]
  | ⟨1, _⟩ => show win0_2.index t (1 : Fin 2) * 40 + 1 * o.val = o.val; rw [e1]; omega

/-- The body's result over the blocks of ANY three arrays, read through the result window's block at point `t`, is
    block `t` of `rowsOut` of those arrays. -/
theorem block_eq (A0 : S100000x64.Idx → EReal) (A1 : S40x64.Idx → EReal) (A2 : S1x40.Idx → EReal) (t : Fin cfg0.N) :
    (cfg0.win 3).cut (grid0.coords t)
        (out0_3 (F := Ideal) (((cfg0.win 0).blk t).view.read (Elt Ideal) A0) (((cfg0.win 1).blk t).view.read (Elt Ideal) A1)
          (((cfg0.win 2).blk t).view.read (Elt Ideal) A2))
      = ((cfg0.win 3).blk t).view.read (Elt Ideal) (rowsOut A0 A1 A2) := by
  unfold out0_3
  rw [View.canon_unit_zero hz]
  simp only [View.ld_unit_zero (S := S10000x64) hz, View.ld_unit_zero (S := S40x64) hz, View.ld_unit_zero (S := S1x40) hz]
  funext j
  obtain ⟨p, q, rfl⟩ : ∃ (p : Fin 10000) (q : Fin 40), j = ix2 p q := ⟨j 0, j 1, eq_ix2 j⟩
  have hN : cfg0.N = 10 := N_0
  have ht := t.isLt
  obtain ⟨-, -, -, -, -, -, e0, e1⟩ := idx_facts t
  have hp := p.isLt
  show k0_pay1 (F := Ideal) (((cfg0.win 0).blk t).view.read (Elt Ideal) A0) (((cfg0.win 1).blk t).view.read (Elt Ideal) A1)
      (((cfg0.win 2).blk t).view.read (Elt Ideal) A2) (ix2 p q)
    = rowsOut A0 A1 A2 (((cfg0.win 3).blk t).view.emb (ix2 p q))
  rw [Cert.KernelIdeal.Block.pay_apply]
  have hemb : ((cfg0.win 3).blk t).view.emb (ix2 p q)
      = ix2 (⟨t.val * 10000 + p.val, by omega⟩ : Fin 100000) q := funext fun a => Fin.ext (by
    match a with
    | ⟨0, _⟩ => show win0_3.index t (0 : Fin 2) * 10000 + 1 * p.val = t.val * 10000 + p.val; rw [e0]; omega
    | ⟨1, _⟩ => show win0_3.index t (1 : Fin 2) * 40 + 1 * q.val = q.val; rw [e1]; omega)
  rw [hemb]
  unfold rowsOut
  refine congrArg (fun l => logSoftmax l q) ?_
  refine congr (congr (congrArg logit ?_) ?_) ?_
  · exact funext fun k => read_features A0 t p k _ rfl
  · exact funext fun o => funext fun k => read_weights A1 t o k
  · exact funext fun o => read_bias A2 t o

/-- WHAT POINT `t` WRITES BACK is block `t` of `rowsOut` of the arrays as the region finds them. -/
theorem flushed_eq (c : Dev nD) (t : Fin cfg0.N) :
    (dats m 0 c).flushed 3 t
      = ((cfg0.win 3).blk t).view.read (Elt Ideal)
          (rowsOut (V m c (Pipeline.arrRef spec0 0)) (V m c (Pipeline.arrRef spec0 1)) (V m c (Pipeline.arrRef spec0 2))) := by
  rw [flushed3]
  unfold iblk
  exact block_eq _ _ _ t

/-- Row `r` of the result lies in the block of point `r / 10000`. -/
theorem cover (i : S100000x40.Idx) : ∃ t : Fin cfg0.N, (cfg0.win 3).flush t = true ∧ i ∈ ((cfg0.win 3).blk t).view.set := by
  have hN : cfg0.N = 10 := N_0
  have hi0 : (i 0).val < 100000 := (i 0).isLt
  have hi1 : (i 1).val < 40 := (i 1).isLt
  let t : Fin cfg0.N := ⟨(i 0).val / 10000, by omega⟩
  obtain ⟨-, -, -, -, -, -, e0, e1⟩ := idx_facts t
  have ht : t.val = (i 0).val / 10000 := rfl
  refine ⟨t, flush0_3 t, ?_⟩
  show i ∈ ((View.whole main_v57).slice (win0_3.rect t)).set
  rw [View.set_slice_whole, Rect.mem_set_unit]
  intro a
  match a with
  | ⟨0, _⟩ =>
    show win0_3.index t (0 : Fin 2) * 10000 ≤ (i 0).val ∧ (i 0).val < win0_3.index t (0 : Fin 2) * 10000 + 10000
    rw [e0, ht]; omega
  | ⟨1, _⟩ =>
    show win0_3.index t (1 : Fin 2) * 40 ≤ (i 1).val ∧ (i 1).val < win0_3.index t (1 : Fin 2) * 40 + 40
    rw [e1]; omega

/-- THE ARRAY after the run is `rowsOut` of the arrays the region finds. -/
theorem final (c : Dev nD) :
    (dats m 0 c).arrAt 3 cfg0.N
      = rowsOut (V m c (Pipeline.arrRef spec0 0)) (V m c (Pipeline.arrRef spec0 1)) (V m c (Pipeline.arrRef spec0 2)) :=
  (dats m 0 c).arrAt_eq_of_cover 3 _ (fun t _ => flushed_eq m c t) cover

end Cert.KernelIdeal.Whole

end
-- ==== Proof.HostSpec.lean ====
/-
  The host computation the two programs share, and the reference's tail, as functions of the argument arrays.

  The graph has `100000` nodes with `64` features each and `1600000` edges given by their two end points; every node
  also gets a self loop, so there are `1700000` edges in all. With `row` the source and `col` the target of each edge,
  the degree of a node is the number of edges that end in it (a scatter-add of ones), `dinv` is the reciprocal square
  root of the degree where the degree is positive and `0` elsewhere, and the weight of an edge is
  `dinv[row] · dinv[col]`. One hop replaces the features by the scatter-add, at `col`, of the weighted feature rows
  gathered at `row`; the propagated features are two hops of the argument. (A negative node number counts from the
  end, as array indexing does: `wrap`.)
  The reference then forms the logits `X · Wᵀ + b` on the host and their log-softmax along each row: the row maximum
  (a reduction from `-∞`, then once more the maximum with `-∞`), the shifted logits, and the logarithm of the row sums
  of their exponentials.
  Every definition here is the operations' composition in program order; nothing is proved about them in this file.
-/
import Idealize.ShloMosaic.PureOps.Ideal

noncomputable section

namespace Cert.HostSpec

open Idealize.ShloMosaic

/-! ## The shapes -/

abbrev SX : Shape := ⟨2, ![100000, 64]⟩
abbrev SE : Shape := ⟨2, ![2, 1600000]⟩
abbrev SE1 : Shape := ⟨2, ![1, 1600000]⟩
abbrev SEv : Shape := ⟨1, ![1600000]⟩
abbrev SN : Shape := ⟨1, ![100000]⟩
abbrev SM : Shape := ⟨1, ![1700000]⟩
abbrev SM1 : Shape := ⟨2, ![1700000, 1]⟩
abbrev SMX : Shape := ⟨2, ![1700000, 64]⟩
abbrev S0 : Shape := ⟨0, ![]⟩
abbrev SW : Shape := ⟨2, ![40, 64]⟩
abbrev SWt : Shape := ⟨2, ![64, 40]⟩
abbrev SB : Shape := ⟨1, ![40]⟩
abbrev SB1 : Shape := ⟨2, ![1, 40]⟩
abbrev SO : Shape := ⟨2, ![100000, 40]⟩
abbrev SO1 : Shape := ⟨2, ![100000, 1]⟩

/-! ## The shape relations the operations take -/

theorem slices_row : SE.Slices ![0, 0] SE1 := by decide
theorem slices_col : SE.Slices ![1, 0] SE1 := by decide
theorem casts_edge : SE1.ShapeCasts SEv := by decide
theorem concat_loops : Shape.Concatenates [SEv, SN] SM 0 := by decide
theorem bcast_0_M : S0.BroadcastsInDim SM (![] : Fin 0 → Fin SM.rank) := by decide
theorem bcast_0_N : S0.BroadcastsInDim SN (![] : Fin 0 → Fin SN.rank) := by decide
theorem bcast_M_M1 : SM.BroadcastsInDim SM1 (![0] : Fin 1 → Fin SM1.rank) := by decide
theorem bcast_M1_MX : SM1.BroadcastsInDim SMX (![0, 1] : Fin 2 → Fin SMX.rank) := by decide
theorem bcast_0_X : S0.BroadcastsInDim SX (![] : Fin 0 → Fin SX.rank) := by decide
theorem transposes_W : SW.Transposes [1, 0] SWt := by decide
theorem bcast_B_B1 : SB.BroadcastsInDim SB1 (![1] : Fin 1 → Fin SB1.rank) := by decide
theorem bcast_B1_O : SB1.BroadcastsInDim SO (![0, 1] : Fin 2 → Fin SO.rank) := by decide
theorem reducesTo_rows : SO.ReducesTo [1] SN := by decide
theorem pos_0 : 0 < S0.numel := by decide
theorem bcast_N_O1 : SN.BroadcastsInDim SO1 (![0] : Fin 1 → Fin SO1.rank) := by decide
theorem bcast_O1_O : SO1.BroadcastsInDim SO (![0, 1] : Fin 2 → Fin SO.rank) := by decide

/-- Scatter of one number per edge into the nodes. -/
def scatterNode : ScatterDims SN SM1 SM where
  updateWindowDims := []
  insertedWindowDims := [0]
  scatterDimsToOperandDims := [0]
  indexVectorDim := 1
  wf := by decide
/-- Gather of one number per edge from the nodes. -/
def gatherNode : GatherDims SN SM1 SM where
  offsetDims := []
  collapsedSliceDims := [0]
  operandBatchingDims := []
  startIndicesBatchingDims := []
  startIndexMap := [0]
  indexVectorDim := 1
  sliceSizes := ![1]
  wf := by decide
/-- Gather of one feature row per edge. -/
def gatherRow : GatherDims SX SM1 SMX where
  offsetDims := [1]
  collapsedSliceDims := [0]
  operandBatchingDims := []
  startIndicesBatchingDims := []
  startIndexMap := [0]
  indexVectorDim := 1
  sliceSizes := ![1, 64]
  wf := by decide
/-- Scatter of one feature row per edge into the nodes. -/
def scatterRow : ScatterDims SX SM1 SMX where
  updateWindowDims := [1]
  insertedWindowDims := [0]
  scatterDimsToOperandDims := [0]
  indexVectorDim := 1
  wf := by decide
/-- The reference's product: features by transposed weights, contracted on the feature axis. -/
def dotXWt : DotDims SX SWt SO where
  lhsContracting := [1]
  rhsContracting := [0]
  lhsNonContracting := [0]
  rhsNonContracting := [1]
  lhsBatch := []
  rhsBatch := []
  wf := by decide

/-! ## The propagation -/

/-- The node numbers `0 … 99999`: the self loops' end points. -/
def loops : IVec SN 32 := iotaInDim SN 32 0

/-- The edges' sources, the self loops last. -/
def row (e : IVec SE 32) : IVec SM 32 :=
  concatenate SM 0 [⟨SEv, shapeCast SEv (extractStridedSlice SE1 ![0, 0] e slices_row) casts_edge⟩, ⟨SN, loops⟩] concat_loops

/-- The edges' targets, the self loops last. -/
def col (e : IVec SE 32) : IVec SM 32 :=
  concatenate SM 0 [⟨SEv, shapeCast SEv (extractStridedSlice SE1 ![1, 0] e slices_col) casts_edge⟩, ⟨SN, loops⟩] concat_loops

/-- A negative node number counts from the end. -/
def wrap (v : IVec SM 32) : IVec SM 32 :=
  select (cmpi .slt v (broadcastInDim SM ![] bcast_0_M (constantI S0 32 0#32)))
    (addi v (broadcastInDim SM ![] bcast_0_M (constantI S0 32 100000#32))) v

/-- A per-edge vector as a one-column index or weight array. -/
abbrev column {α : Type} (v : SM.Idx → α) : SM1.Idx → α := broadcastInDim SM1 ![0] bcast_M_M1 v

/-- The number of edges ending in each node, from the edges' targets. -/
def degOf (cl : IVec SM 32) : FVec Ideal SN .f32 :=
  Host.scatterAdd scatterNode (broadcastInDim SN ![] bcast_0_N (constant (F := Ideal) S0 .f32 0x00000000#32)) (column cl)
    (broadcastInDim SM ![] bcast_0_M (constant (F := Ideal) S0 .f32 0x3F800000#32))

/-- `rs` where the mask `gt` is set, the scalar `z` elsewhere. -/
def dinvOf (gt : IVec SN 1) (rs : FVec Ideal SN .f32) (z : FVec Ideal S0 .f32) : FVec Ideal SN .f32 :=
  select gt rs (broadcastInDim SN ![] bcast_0_N (id z))

/-- The weight of each edge, from the per-node factor and the edges' end points. -/
def normOf (dv : FVec Ideal SN .f32) (rw cl : IVec SM 32) : FVec Ideal SM .f32 :=
  mulf (Host.gather gatherNode dv (column (wrap rw))) (Host.gather gatherNode dv (column (wrap cl)))

/-- One hop: the weighted feature rows gathered at the sources, added up at the targets. -/
def hopOf (nrm : FVec Ideal SM .f32) (rw cl : IVec SM 32) (x : FVec Ideal SX .f32) : FVec Ideal SX .f32 :=
  Host.scatterAdd scatterRow (broadcastInDim SX ![] bcast_0_X (constant (F := Ideal) S0 .f32 0x00000000#32)) (column cl)
    (mulf (broadcastInDim SMX ![0, 1] bcast_M1_MX (column nrm)) (Host.gather gatherRow x (column (wrap rw))))

/-- Two hops with the same edge weights. -/
def propagateOf (dv : FVec Ideal SN .f32) (rw cl : IVec SM 32) (x : FVec Ideal SX .f32) : FVec Ideal SX .f32 :=
  hopOf (normOf dv rw cl) rw cl (hopOf (normOf dv rw cl) rw cl x)

/-- The degree is positive. -/
def degPos (e : IVec SE 32) : IVec SN 1 :=
  cmpf (F := Ideal) .ogt (degOf (col e)) (broadcastInDim SN ![] bcast_0_N (constant (F := Ideal) S0 .f32 0x00000000#32))

/-- The reciprocal square root of the degree where it is positive, `0` elsewhere. -/
def dinv (e : IVec SE 32) : FVec Ideal SN .f32 :=
  dinvOf (degPos e) (Host.rsqrt (degOf (col e))) (constant (F := Ideal) S0 .f32 0x00000000#32)

/-- The propagated features: two hops of the argument. -/
def propagate (e : IVec SE 32) (x : FVec Ideal SX .f32) : FVec Ideal SX .f32 :=
  propagateOf (dinv e) (row e) (col e) x

/-! ## The reference's tail -/

/-- The logits on the host: features by transposed weights, plus the bias repeated down the rows. -/
def hostLogits (X : FVec Ideal SX .f32) (W : FVec Ideal SW .f32) (b : FVec Ideal SB .f32) : FVec Ideal SO .f32 :=
  addf (Host.dotGeneral dotXWt none X (transpose SWt [1, 0] W transposes_W))
    (broadcastInDim SO ![0, 1] bcast_B1_O (broadcastInDim SB1 ![1] bcast_B_B1 b))

/-- The row maxima as the host takes them: reduced from `-∞`, then the maximum with `-∞` once more. -/
def hostRowMax (L : FVec Ideal SO .f32) : FVec Ideal SN .f32 :=
  maximumf (broadcastInDim SN ![] bcast_0_N (constant (F := Ideal) S0 .f32 0xFF800000#32))
    (Host.reduce FloatOps.maximumf L (constant (F := Ideal) S0 .f32 0xFF800000#32) reducesTo_rows pos_0)

/-- The logits less their row maximum. -/
def hostShifted (L : FVec Ideal SO .f32) : FVec Ideal SO .f32 :=
  subf L (broadcastInDim SO ![0, 1] bcast_O1_O (broadcastInDim SO1 ![0] bcast_N_O1 (hostRowMax L)))

/-- The log-softmax on the host. -/
def hostLogSoftmax (L : FVec Ideal SO .f32) : FVec Ideal SO .f32 :=
  subf (hostShifted L) (broadcastInDim SO ![0, 1] bcast_O1_O (Host.log (broadcastInDim SO1 ![0] bcast_N_O1
    (Host.reduceAdd (Host.exp (hostShifted L)) (constant (F := Ideal) S0 .f32 0x00000000#32) reducesTo_rows pos_0))))

/-- The reference's result as a function of its four arguments. -/
def reference (x : FVec Ideal SX .f32) (e : IVec SE 32) (W : FVec Ideal SW .f32) (b : FVec Ideal SB .f32) : FVec Ideal SO .f32 :=
  hostLogSoftmax (hostLogits (propagate e x) W b)

end Cert.HostSpec

end
-- ==== Proof.LibConcat2.lean ====
/-
  A concatenation of two arrays, named.

  The printed programs write a two-operand `concatenate` over a list of two (shape, array) pairs, and the shape fact it
  takes is stated about that list, so its type mentions the two arrays. Naming the concatenation as a function of the
  two arrays, with the shape fact stated about the two shapes alone, makes the arrays ordinary arguments on which
  nothing else depends, which rewriting reaches.
-/
import Idealize.ShloMosaic.PureOps.ShapeOps

namespace Cert.LibConcat2

open Idealize.ShloMosaic

/-- The concatenation of `x` (of shape `s₁`) and `y` (of shape `s₂`) along axis `a` into shape `t`. -/
def concat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- A two-operand `concatenate` is `concat2` of its operands. -/
theorem concatenate_pair {α : Type} (t : Shape) (a : Fin t.rank) (s₁ s₂ : Shape) (x : s₁.Idx → α) (y : s₂.Idx → α)
    (h : Shape.Concatenates (List.map (fun p : (s : Shape) × (s.Idx → α) => p.1) [⟨s₁, x⟩, ⟨s₂, y⟩]) t a) :
    concatenate t a [⟨s₁, x⟩, ⟨s₂, y⟩] h = concat2 t a s₁ s₂ h x y := rfl

end Cert.LibConcat2
-- ==== Proof.KernelEntry.lean ====
/-
  What the kernel's region finds in the arrays it stages: the propagated features and the bias as a row.

  The host operations before the region come in three stretches: the edge list with its self loops, the degrees,
  their comparison with zero and their reciprocal square roots; then the selection of the reciprocal square root where
  the degree is positive; then the edge weights, the two hops, and the bias re-laid as a `1 × 40` row. Each stretch is
  read from ANY contents it may start from, so the next stretch never looks inside the one before it; chained from the
  launch contents they give the propagation of the two arguments.
-/
import proofs.«137526_j4569845203315_1_alg».proof.Proof.Gen.KernelIdeal.Frame
import proofs.«137526_j4569845203315_1_alg».proof.Proof.HostSpec
import proofs.«137526_j4569845203315_1_alg».proof.Proof.LibConcat2
import Idealize.ShloMosaic.Lib.StableHlo.Run
import Idealize.ShloMosaic.Lib.Pipeline.Frame
import Idealize.ShloMosaic.PureOps.Ideal

noncomputable section

namespace Cert.KernelIdeal.Entry

open Cert.KernelIdeal Cert.KernelIdeal.Gen Idealize.ShloMosaic Idealize.ShloMosaic.TcCoe Idealize.SL.Sem Idealize.ShloMosaic.StableHlo
open Cert.HostSpec

/-- The three stretches one after the other. -/
theorem V_split (m : (ℓ : Loc nD τ sig) → Buf (Elt Ideal) ℓ) (c : Dev nD) (b : Ref sig .tc) :
    V (F := Ideal) m c b
      = after (hostOps0_2 (F := Ideal)) (after (hostOps0_1 (F := Ideal)) (after (hostOps0 (F := Ideal)) (fun b => m (c, b)))) b := by
  dsimp only [V]
  rw [List.flatten_cons, List.flatten_cons, List.flatten_cons, List.flatten_nil, List.append_nil, after_append, after_append]

section First
variable (m : (ℓ : Loc nD τ sig) → Buf (Elt Ideal) ℓ) (c : Dev nD)

/-! ## The first stretch, from the launch contents -/

theorem first_row : after (hostOps0 (F := Ideal)) (fun b => m (c, b)) (Proc.devRef .tc main_v3) = row (m ((c : Thread nD τ).loc main_arg1)) := by
  simp only [hostOps0, Cert.LibConcat2.concatenate_pair]
  after_results_simp
  rfl

theorem first_col : after (hostOps0 (F := Ideal)) (fun b => m (c, b)) (Proc.devRef .tc main_v6) = col (m ((c : Thread nD τ).loc main_arg1)) := by
  simp only [hostOps0, Cert.LibConcat2.concatenate_pair]
  after_results_simp
  rfl

theorem first_pos : after (hostOps0 (F := Ideal)) (fun b => m (c, b)) (Proc.devRef .tc main_v12) = degPos (m ((c : Thread nD τ).loc main_arg1)) := by
  simp only [hostOps0, Cert.LibConcat2.concatenate_pair]
  after_results_simp
  rfl

theorem first_rsqrt : after (hostOps0 (F := Ideal)) (fun b => m (c, b)) (Proc.devRef .tc main_v13)
    = Host.rsqrt (degOf (col (m ((c : Thread nD τ).loc main_arg1)))) := by
  simp only [hostOps0, Cert.LibConcat2.concatenate_pair]
  after_results_simp
  rfl

theorem first_zero : after (hostOps0 (F := Ideal)) (fun b => m (c, b)) (Proc.devRef .tc main_cst_2)
    = constant (F := Ideal) S0 .f32 0x00000000#32 := by
  simp only [hostOps0]
  after_results_simp <;> rfl

theorem first_x : after (hostOps0 (F := Ideal)) (fun b => m (c, b)) (Proc.devRef .tc main_arg0) = m ((c : Thread nD τ).loc main_arg0) := by
  simp only [hostOps0]
  after_results_simp <;> rfl

theorem first_b : after (hostOps0 (F := Ideal)) (fun b => m (c, b)) (Proc.devRef .tc main_arg3) = m ((c : Thread nD τ).loc main_arg3) := by
  simp only [hostOps0]
  after_results_simp <;> rfl

end First

section Second
variable (W : Valuation τ sig (Elt Ideal))

/-! ## The second stretch, from any contents -/

theorem second_dinv : after (hostOps0_1 (F := Ideal)) W (Proc.devRef .tc main_v14)
    = dinvOf (W (Proc.devRef .tc main_v12)) (W (Proc.devRef .tc main_v13)) (W (Proc.devRef .tc main_cst_2)) := by
  simp only [hostOps0_1]
  after_results_simp
  rfl

theorem second_row : after (hostOps0_1 (F := Ideal)) W (Proc.devRef .tc main_v3) = W (Proc.devRef .tc main_v3) := by
  simp only [hostOps0_1]
  after_results_simp
theorem second_col : after (hostOps0_1 (F := Ideal)) W (Proc.devRef .tc main_v6) = W (Proc.devRef .tc main_v6) := by
  simp only [hostOps0_1]
  after_results_simp
theorem second_x : after (hostOps0_1 (F := Ideal)) W (Proc.devRef .tc main_arg0) = W (Proc.devRef .tc main_arg0) := by
  simp only [hostOps0_1]
  after_results_simp
theorem second_b : after (hostOps0_1 (F := Ideal)) W (Proc.devRef .tc main_arg3) = W (Proc.devRef .tc main_arg3) := by
  simp only [hostOps0_1]
  after_results_simp

/-! ## The third stretch, from any contents -/

theorem third_features : after (hostOps0_2 (F := Ideal)) W (Proc.devRef .tc main_v55)
    = propagateOf (W (Proc.devRef .tc main_v14)) (W (Proc.devRef .tc main_v3)) (W (Proc.devRef .tc main_v6)) (W (Proc.devRef .tc main_arg0)) := by
  simp only [hostOps0_2]
  after_results_simp
  rfl

theorem third_bias : after (hostOps0_2 (F := Ideal)) W (Proc.devRef .tc main_v56)
    = shapeCast S1x40 (W (Proc.devRef .tc main_arg3) : FVec Ideal S40 .f32) shapeCasts_S40_S1x40 := by
  simp only [hostOps0_2]
  after_results_simp
  rfl

end Second

/-! ## Chained -/

variable (m : (ℓ : Loc nD τ sig) → Buf (Elt Ideal) ℓ) (c : Dev nD)

/-- The feature window's array, as the region finds it, is the propagation of the two arguments. -/
theorem V_features : V (F := Ideal) m c main_v55
    = propagate (m ((c : Thread nD τ).loc main_arg1)) (m ((c : Thread nD τ).loc main_arg0)) := by
  rw [V_split, third_features, second_dinv, second_row, second_col, second_x, first_row, first_col, first_pos, first_rsqrt,
    first_zero, first_x]
  rfl

/-- The bias window's array, as the region finds it, is the bias re-laid as a row. -/
theorem V_bias : V (F := Ideal) m c main_v56
    = shapeCast S1x40 (m ((c : Thread nD τ).loc main_arg3) : FVec Ideal S40 .f32) shapeCasts_S40_S1x40 := by
  rw [V_split, third_bias, second_b, first_b]

end Cert.KernelIdeal.Entry

end
-- ==== Proof.RefRun.lean ====
/-
  The reference's run, read back: its result is `HostSpec.reference` of the four arguments.

  The reference is ninety-two host operations in a line. They are read in four stretches, each from ANY contents it
  may start from: the edge list, the degrees, their comparison with zero and their reciprocal square roots; the
  selection of the reciprocal square root where the degree is positive; the edge weights, the two hops and the logits;
  the log-softmax. Chained from the launch contents they give the result as one function of the arguments, and the
  library's run of a line of operations says every execution ends with the buffers at these contents.
-/
import proofs.«137526_j4569845203315_1_alg».proof.Proof.RefOps
import proofs.«137526_j4569845203315_1_alg».proof.Proof.HostSpec
import proofs.«137526_j4569845203315_1_alg».proof.Proof.LibConcat2
import Idealize.ShloMosaic.Lib.StableHlo.Run
import Idealize.ShloMosaic.Lib.Pipeline.Frame
import Idealize.ShloMosaic.PureOps.Ideal

noncomputable section

namespace Cert.ReferenceIdeal.RunP

open Cert.ReferenceIdeal Cert.ReferenceIdeal.Gen Cert.ReferenceIdeal.ValueP Idealize.ShloMosaic Idealize.ShloMosaic.TcCoe Idealize.SL.Sem
open Idealize.ShloMosaic.StableHlo
open Cert.HostSpec

/-- The four stretches. -/
abbrev opsA : List (HloOp τ sig (Elt Ideal)) := (ops (F := Ideal)).take 18
abbrev opsB : List (HloOp τ sig (Elt Ideal)) := ((ops (F := Ideal)).drop 18).take 3
abbrev opsC : List (HloOp τ sig (Elt Ideal)) := ((ops (F := Ideal)).drop 21).take 56
abbrev opsD : List (HloOp τ sig (Elt Ideal)) := (ops (F := Ideal)).drop 77

theorem ops_split : (ops (F := Ideal)) = opsA ++ (opsB ++ (opsC ++ opsD)) := by
  simp only [opsA, opsB, opsC, opsD, ops, List.take_succ_cons, List.take_zero, List.drop_succ_cons, List.drop_zero,
    List.cons_append, List.nil_append]

/-- The four stretches one after the other. -/
theorem after_split (W : Valuation τ sig (Elt Ideal)) (b : DevRef τ sig) :
    after (ops (F := Ideal)) W b = after opsD (after opsC (after opsB (after opsA W))) b := by
  rw [ops_split, after_append, after_append, after_append]

section First
variable (m : (ℓ : Loc nD τ sig) → Buf (Elt Ideal) ℓ) (c : Dev nD)

/-! ## The first stretch, from the launch contents -/

theorem first_row : after opsA (launchContents m c) (Proc.devRef .tc main_v3) = row (m ((c.tc : Thread nD τ).loc main_arg1)) := by
  simp only [opsA, ops, List.take_succ_cons, List.take_zero, Cert.LibConcat2.concatenate_pair]
  after_results_simp
  rfl

theorem first_col : after opsA (launchContents m c) (Proc.devRef .tc main_v6) = col (m ((c.tc : Thread nD τ).loc main_arg1)) := by
  simp only [opsA, ops, List.take_succ_cons, List.take_zero, Cert.LibConcat2.concatenate_pair]
  after_results_simp
  rfl

theorem first_pos : after opsA (launchContents m c) (Proc.devRef .tc main_v12) = degPos (m ((c.tc : Thread nD τ).loc main_arg1)) := by
  simp only [opsA, ops, List.take_succ_cons, List.take_zero, Cert.LibConcat2.concatenate_pair]
  after_results_simp
  rfl

theorem first_rsqrt : after opsA (launchContents m c) (Proc.devRef .tc main_v13)
    = Host.rsqrt (degOf (col (m ((c.tc : Thread nD τ).loc main_arg1)))) := by
  simp only [opsA, ops, List.take_succ_cons, List.take_zero, Cert.LibConcat2.concatenate_pair]
  after_results_simp
  rfl

theorem first_zero : after opsA (launchContents m c) (Proc.devRef .tc main_cst_2) = constant (F := Ideal) S0 .f32 0x00000000#32 := by
  simp only [opsA, ops, List.take_succ_cons, List.take_zero]
  after_results_simp <;> rfl

theorem first_x : after opsA (launchContents m c) (Proc.devRef .tc main_arg0) = m ((c.tc : Thread nD τ).loc main_arg0) := by
  simp only [opsA, ops, List.take_succ_cons, List.take_zero]
  after_results_simp <;> rfl

theorem first_w : after opsA (launchContents m c) (Proc.devRef .tc main_arg2) = m ((c.tc : Thread nD τ).loc main_arg2) := by
  simp only [opsA, ops, List.take_succ_cons, List.take_zero]
  after_results_simp <;> rfl

theorem first_b : after opsA (launchContents m c) (Proc.devRef .tc main_arg3) = m ((c.tc : Thread nD τ).loc main_arg3) := by
  simp only [opsA, ops, List.take_succ_cons, List.take_zero]
  after_results_simp <;> rfl

end First

section Later
variable (W : Valuation τ sig (Elt Ideal))

/-! ## The second stretch, from any contents -/

theorem second_dinv : after opsB W (Proc.devRef .tc main_v14)
    = dinvOf (W (Proc.devRef .tc main_v12)) (W (Proc.devRef .tc main_v13)) (W (Proc.devRef .tc main_cst_2)) := by
  simp only [opsB, ops, List.take_succ_cons, List.take_zero, List.drop_succ_cons, List.drop_zero]
  after_results_simp
  rfl

theorem second_row : after opsB W (Proc.devRef .tc main_v3) = W (Proc.devRef .tc main_v3) := by
  simp only [opsB, ops, List.take_succ_cons, List.take_zero, List.drop_succ_cons, List.drop_zero]
  after_results_simp
theorem second_col : after opsB W (Proc.devRef .tc main_v6) = W (Proc.devRef .tc main_v6) := by
  simp only [opsB, ops, List.take_succ_cons, List.take_zero, List.drop_succ_cons, List.drop_zero]
  after_results_simp
theorem second_x : after opsB W (Proc.devRef .tc main_arg0) = W (Proc.devRef .tc main_arg0) := by
  simp only [opsB, ops, List.take_succ_cons, List.take_zero, List.drop_succ_cons, List.drop_zero]
  after_results_simp
theorem second_w : after opsB W (Proc.devRef .tc main_arg2) = W (Proc.devRef .tc main_arg2) := by
  simp only [opsB, ops, List.take_succ_cons, List.take_zero, List.drop_succ_cons, List.drop_zero]
  after_results_simp
theorem second_b : after opsB W (Proc.devRef .tc main_arg3) = W (Proc.devRef .tc main_arg3) := by
  simp only [opsB, ops, List.take_succ_cons, List.take_zero, List.drop_succ_cons, List.drop_zero]
  after_results_simp

/-! ## The third stretch, from any contents -/

theorem third_logits : after opsC W (Proc.devRef .tc main_v60)
    = hostLogits (propagateOf (W (Proc.devRef .tc main_v14)) (W (Proc.devRef .tc main_v3)) (W (Proc.devRef .tc main_v6))
        (W (Proc.devRef .tc main_arg0))) (W (Proc.devRef .tc main_arg2)) (W (Proc.devRef .tc main_arg3)) := by
  simp only [opsC, ops, List.take_succ_cons, List.take_zero, List.drop_succ_cons, List.drop_zero]
  after_results_simp
  rfl

/-! ## The fourth stretch, from any contents -/

/-- Contents moved to a buffer's own type and back are the contents. -/
theorem ofBuf_toBuf {T : BufTy} (x : TRef sig T) (v : T.Contents (Elt Ideal)) : x.ofBuf (x.toBuf v) = v := by
  obtain ⟨r, h, h2, h3⟩ := x
  subst h
  rfl

theorem fourth_out : after opsD W (Proc.devRef .tc main_v61) = hostLogSoftmax (W (Proc.devRef .tc main_v60)) := by
  simp only [opsD, ops, List.drop_succ_cons, List.drop_zero]
  after_results_simp
  simp only [ofBuf_toBuf]
  have e60 : ∀ h1 h2 h3, (TRef.of (T := ⟨S100000x40, .f32⟩) main_v60 h1 h2 h3).ofBuf (W (Proc.devRef .tc main_v60))
      = W (Proc.devRef .tc main_v60) := fun _ _ _ => rfl
  have e61 : ∀ h1 h2 h3 (v : (⟨S100000x40, .f32⟩ : BufTy).Contents (Elt Ideal)),
      (TRef.of (T := ⟨S100000x40, .f32⟩) main_v61 h1 h2 h3).toBuf v = v := fun _ _ _ _ => rfl
  simp only [e60]
  rw [e61]
  rfl

end Later

/-! ## Chained, and the run -/

/-- The result buffer after the ninety-two operations, from the launch contents. -/
theorem result_eq (m : (ℓ : Loc nD τ sig) → Buf (Elt Ideal) ℓ) (c : Dev nD) :
    after (ops (F := Ideal)) (launchContents m c) (Proc.devRef .tc main_v61)
      = reference (m ((c.tc : Thread nD τ).loc main_arg0)) (m ((c.tc : Thread nD τ).loc main_arg1))
          (m ((c.tc : Thread nD τ).loc main_arg2)) (m ((c.tc : Thread nD τ).loc main_arg3)) := by
  rw [after_split, fourth_out, third_logits, second_dinv, second_row, second_col, second_x, second_w, second_b,
    first_row, first_col, first_pos, first_rsqrt, first_zero, first_x, first_w, first_b]
  rfl

set_option maxRecDepth 8192 in
/-- Every weakly fair execution of the reference terminates with its result at `HostSpec.reference` of the arguments and
    the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v61)
          = reference (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v61).trans (result_eq m c),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RunP

end
-- ==== Proof.HostTail.lean ====
/-
  The reference's tail read at one entry: it is the row log-softmax of the logits of that row.

  The host's product contracts the features' second axis with the FIRST axis of the transposed weights; read at
  `(r, o)` it is `∑ k, X (r, k) · Wᵀ (k, o) = ∑ k, X (r, k) · W (o, k)`, and the bias, laid as a `1 × 40` row and repeated
  down the rows, contributes `b o`. The host's row maximum is the fold of `max` from `-∞` over the row, and one more
  `max` with `-∞` leaves it as it is; the host's row sum starts from `0`, which adds nothing. The unit axes that keep
  the reduced axis in place only forget a coordinate.
-/
import proofs.«137526_j4569845203315_1_alg».proof.Proof.HostSpec
import proofs.«137526_j4569845203315_1_alg».proof.Proof.RowSoftmax
import proofs.«137526_j4569845203315_1_alg».proof.Proof.LibRowMax
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.HostSpec

open Idealize.ShloMosaic Idealize.ShloMosaic.ValueIdx Cert.RowSoftmax

/-! ## The product's operand indices -/

theorem dotXWt_lhs_row (i : SO.Idx) (q : dotXWt.contr.Idx) : (dotXWt.lhsIdx i q 0).val = (i 0).val := by
  unfold DotDims.lhsIdx
  rw [dif_neg (show ¬(0 : Fin SX.rank) ∈ dotXWt.lhsBatch by decide),
    dif_pos (show (0 : Fin SX.rank) ∈ dotXWt.lhsNonContracting by decide)]
  rfl

theorem dotXWt_rhs_col (i : SO.Idx) (q : dotXWt.contr.Idx) : (dotXWt.rhsIdx i q 1).val = (i 1).val := by
  unfold DotDims.rhsIdx
  rw [dif_neg (show ¬(1 : Fin SWt.rank) ∈ dotXWt.rhsBatch by decide),
    dif_pos (show (1 : Fin SWt.rank) ∈ dotXWt.rhsNonContracting by decide)]
  rfl

/-- The host's product at `(r, o)`: the inner product of feature row `r` with weight row `o`. -/
theorem hostDot_apply (X : FVec Ideal SX .f32) (W : FVec Ideal SW .f32) (r : Fin 100000) (o : Fin 40) :
    Host.dotGeneral dotXWt none X (transpose SWt [1, 0] W transposes_W) (ix2 r o) = ∑ k : Fin 64, X (ix2 r k) * W (ix2 o k) := by
  simp only [Host.dotGeneral]
  rw [Ideal.dotGeneral_apply, ← Equiv.sum_comp (contrEquiv1 dotXWt 64 rfl rfl).symm]
  refine Finset.sum_congr rfl fun k _ => ?_
  have hk := contrEquiv1_symm_val dotXWt 64 rfl rfl k
  have el : dotXWt.lhsIdx (ix2 r o) ((contrEquiv1 dotXWt 64 rfl rfl).symm k) = ix2 r k :=
    funext fun a => Fin.ext (by
      match a with
      | ⟨0, _⟩ => exact dotXWt_lhs_row _ _
      | ⟨1, _⟩ => exact (dotXWt.lhsIdx_val_of_single rfl _ _).trans hk)
  have er : dotXWt.rhsIdx (ix2 r o) ((contrEquiv1 dotXWt 64 rfl rfl).symm k) = ix2 k o :=
    funext fun a => Fin.ext (by
      match a with
      | ⟨0, _⟩ => exact (dotXWt.rhsIdx_val_of_single rfl _ _).trans hk
      | ⟨1, _⟩ => exact dotXWt_rhs_col _ _)
  rw [el, er, transpose_ix2_apply]

/-- The bias laid as a row and repeated down the rows reads `b o` at `(r, o)`. -/
theorem hostBias_apply (b : FVec Ideal SB .f32) (r : Fin 100000) (o : Fin 40) :
    broadcastInDim SO ![0, 1] bcast_B1_O (broadcastInDim SB1 ![1] bcast_B_B1 b) (ix2 r o) = b (ix1 o) :=
  (broadcastInDim_apply _ bcast_B1_O _ (ix2 r o) (ix2 (0 : Fin 1) o) (fun a => match a with
    | ⟨0, _⟩ => by show 0 = if (1 : Nat) = 1 then 0 else r.val; rw [if_pos rfl]
    | ⟨1, _⟩ => by show o.val = if (40 : Nat) = 1 then 0 else o.val; rw [if_neg (by decide)])).trans
  (broadcastInDim_apply _ bcast_B_B1 b (ix2 (0 : Fin 1) o) (ix1 o) (fun a => match a with
    | ⟨0, _⟩ => by show o.val = if (40 : Nat) = 1 then 0 else o.val; rw [if_neg (by decide)]))

/-- The host's logits at `(r, o)`. -/
theorem hostLogits_apply (X : FVec Ideal SX .f32) (W : FVec Ideal SW .f32) (b : FVec Ideal SB .f32) (r : Fin 100000) (o : Fin 40) :
    hostLogits X W b (ix2 r o) = logit (fun k => X (ix2 r k)) (fun o k => W (ix2 o k)) (fun o => b (ix1 o)) o := by
  unfold hostLogits logit
  rw [addf_apply, hostDot_apply, hostBias_apply]

/-- A column repeated along the rows reads, at `(r, o)`, the column's entry `r`. -/
theorem repeatCol_apply (u : FVec Ideal SO1 .f32) (r : Fin 100000) (o : Fin 40) :
    broadcastInDim SO ![0, 1] bcast_O1_O u (ix2 r o) = u (ix2 r (0 : Fin 1)) :=
  broadcastInDim_apply _ bcast_O1_O u (ix2 r o) (ix2 r (0 : Fin 1)) (fun a => match a with
    | ⟨0, _⟩ => by show r.val = if (100000 : Nat) = 1 then 0 else r.val; rw [if_neg (by decide)]
    | ⟨1, _⟩ => by show 0 = if (1 : Nat) = 1 then 0 else o.val; rw [if_pos rfl])

/-- A per-row vector kept as a column reads, at `(r, 0)`, the vector at `r`. -/
theorem keepCol_apply (v : FVec Ideal SN .f32) (r : Fin 100000) :
    broadcastInDim SO1 ![0] bcast_N_O1 v (ix2 r (0 : Fin 1)) = v (ix1 r) :=
  broadcastInDim_apply _ bcast_N_O1 v (ix2 r (0 : Fin 1)) (ix1 r) (fun a => match a with
    | ⟨0, _⟩ => by show r.val = if (100000 : Nat) = 1 then 0 else r.val; rw [if_neg (by decide)])

/-- A per-row vector kept as a column and repeated along the rows reads, at `(r, o)`, the vector at `r`. -/
theorem keepRow_apply (v : FVec Ideal SN .f32) (r : Fin 100000) (o : Fin 40) :
    broadcastInDim SO ![0, 1] bcast_O1_O (broadcastInDim SO1 ![0] bcast_N_O1 v) (ix2 r o) = v (ix1 r) :=
  (repeatCol_apply _ r o).trans (keepCol_apply v r)

/-- The host's row maximum at row `r`. -/
theorem hostRowMax_apply (L : FVec Ideal SO .f32) (r : Fin 100000) :
    hostRowMax L (ix1 r) = rowMax (fun o => L (ix2 r o)) := by
  unfold hostRowMax
  rw [maximumf_apply, Cert.LibRowMax.hostReduce_maximumf_row L _ reducesTo_rows (by decide) pos_0 r]
  exact max_negInf _

/-- The shifted logits at `(r, o)`. -/
theorem hostShifted_apply (L : FVec Ideal SO .f32) (r : Fin 100000) (o : Fin 40) :
    hostShifted L (ix2 r o) = L (ix2 r o) - rowMax (fun o => L (ix2 r o)) := by
  unfold hostShifted
  rw [subf_apply, keepRow_apply, hostRowMax_apply]

/-- The host's exponential and logarithm act entry by entry. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- The host's row sum of an array `Y`, from `0`, at row `r`. -/
theorem hostRowSum_apply (Y : FVec Ideal SO .f32) (r : Fin 100000) :
    Host.reduceAdd Y (constant (F := Ideal) S0 .f32 0x00000000#32) reducesTo_rows pos_0 (ix1 r) = ∑ k : Fin 40, Y (ix2 r k) := by
  simp only [Host.reduceAdd, Ideal.hostReduceAdd_def]
  rw [Ideal.hostReduceAdd_single reducesTo_rows (by decide), constant_apply, Ideal.ofBits_zero_f32, zero_add]
  exact Finset.sum_congr rfl fun k _ => congrArg Y (Cert.LibRowMax.lift_row _ r k)

/-- The host's log-softmax at `(r, o)` is the row log-softmax of row `r` at `o`. -/
theorem hostLogSoftmax_apply (L : FVec Ideal SO .f32) (r : Fin 100000) (o : Fin 40) :
    hostLogSoftmax L (ix2 r o) = logSoftmax (fun o => L (ix2 r o)) o := by
  unfold hostLogSoftmax logSoftmax
  rw [subf_apply, hostShifted_apply, repeatCol_apply, hostLog_apply, keepCol_apply, hostRowSum_apply]
  refine congrArg (fun s => (L (ix2 r o) - rowMax fun o => L (ix2 r o)) - Ideal.log s) (Finset.sum_congr rfl fun k _ => ?_)
  rw [hostExp_apply, hostShifted_apply]

/-- The reference's result at `(r, o)`: the row log-softmax, at `o`, of the logits of propagated feature row `r`. -/
theorem reference_apply (x : FVec Ideal SX .f32) (e : IVec SE 32) (W : FVec Ideal SW .f32) (b : FVec Ideal SB .f32)
    (r : Fin 100000) (o : Fin 40) :
    reference x e W b (ix2 r o)
      = logSoftmax (logit (fun k => propagate e x (ix2 r k)) (fun o k => W (ix2 o k)) (fun o => b (ix1 o))) o := by
  unfold reference
  rw [hostLogSoftmax_apply]
  exact congrArg (fun l => logSoftmax l o) (funext fun q => hostLogits_apply _ W b r q)

end Cert.HostSpec

end
-- ==== Proof.lean ====
/-
  The kernel is a linear layer and a row log-softmax over graph features that were first propagated along the edges; the
  reference computes the same thing with jnp operations. Both programs begin with the SAME host operations — degrees,
  symmetric normalisation, two hops of gather, scale and scatter-add — and differ only in how the last stage is done:
  the kernel tiles the `100000` rows in ten blocks of `10000`, narrows both matrix operands before the product and keeps
  the bias as a `1 × 40` row; the reference multiplies by the transposed weights on the host and calls `log_softmax`.

  Over the extended reals the narrowing is the identity, and at every entry `(r, o)` both results are the row
  log-softmax, at `o`, of the logits `∑ k, X (r, k) · W (o, k) + b o` of the propagated feature row `r`
  (`RowSoftmax.logSoftmax`, `RowSoftmax.logit`): for the kernel by reading its body's stored value at an entry
  (KernelBlock), laying the ten blocks side by side (KernelArray) and reading what the region finds in its arrays
  (KernelEntry); for the reference by reading its ninety-two operations back (RefRun) and its tail at an entry
  (HostTail). The operations are applied in the same order on both sides, so no law of the extended reals that needs
  finite inputs is used: the precondition is never opened. The idealisation rewrote nothing, so `preserves` is trivial.
-/
import proofs.«137526_j4569845203315_1_alg».proof.Defs
import proofs.«137526_j4569845203315_1_alg».proof.Proof.Gen.Kernel
import proofs.«137526_j4569845203315_1_alg».proof.Proof.Gen.Kernel.Frame
import proofs.«137526_j4569845203315_1_alg».proof.Proof.Gen.KernelIdeal
import proofs.«137526_j4569845203315_1_alg».proof.Proof.Gen.KernelIdeal.Frame
import proofs.«137526_j4569845203315_1_alg».proof.Proof.Gen.KernelIdeal.Value
import proofs.«137526_j4569845203315_1_alg».proof.Proof.Gen.ReferenceIdeal
import proofs.«137526_j4569845203315_1_alg».proof.Proof.Gen.Pre_finite_inputs
import proofs.«137526_j4569845203315_1_alg».proof.Proof.KernelArray
import proofs.«137526_j4569845203315_1_alg».proof.Proof.KernelEntry
import proofs.«137526_j4569845203315_1_alg».proof.Proof.RefRun
import proofs.«137526_j4569845203315_1_alg».proof.Proof.HostTail
import Idealize.ShloMosaic.Lib.ValueLayout

noncomputable section

namespace Cert.Proof

open Idealize.ShloMosaic Idealize.ShloMosaic.TcCoe Idealize.SL.Sem Idealize.ShloMosaic.ValueIdx
open Cert.RowSoftmax

/-! ## The kernel's result array is the reference's function of the arguments -/

section KernelValue

open Cert.KernelIdeal Cert.KernelIdeal.Gen

/-- What the kernel's result array ends holding (`Whole.rowsOut` of the arrays the region finds) is, entry by entry,
    `HostSpec.reference` of the four arguments: the feature array found is the propagation, the weights are the argument,
    and the bias row read at `(0, o)` is the bias at `o`. -/
theorem kernel_value (m : (ℓ : Loc nD τ sig) → Buf (Elt Ideal) ℓ) (c : Dev nD) :
    Cert.KernelIdeal.Whole.rowsOut (V m c (Pipeline.arrRef spec0 0)) (V m c (Pipeline.arrRef spec0 1)) (V m c (Pipeline.arrRef spec0 2))
      = Cert.HostSpec.reference (m ((c : Thread nD τ).loc main_arg0)) (m ((c : Thread nD τ).loc main_arg1))
          (m ((c : Thread nD τ).loc main_arg2)) (m ((c : Thread nD τ).loc main_arg3)) := by
  have h0 : V (F := Ideal) m c (Pipeline.arrRef spec0 0)
      = Cert.HostSpec.propagate (m ((c : Thread nD τ).loc main_arg1)) (m ((c : Thread nD τ).loc main_arg0)) :=
    Cert.KernelIdeal.Entry.V_features m c
  have h1 : V (F := Ideal) m c (Pipeline.arrRef spec0 1) = m ((c : Thread nD τ).loc main_arg2) := V_main_arg2 m c
  have h2 : V (F := Ideal) m c (Pipeline.arrRef spec0 2)
      = shapeCast S1x40 (m ((c : Thread nD τ).loc main_arg3) : FVec Ideal S40 .f32) shapeCasts_S40_S1x40 :=
    Cert.KernelIdeal.Entry.V_bias m c
  rw [h0, h1, h2]
  funext i
  obtain ⟨r, o, rfl⟩ : ∃ (r : Fin 100000) (o : Fin 40), i = ix2 r o := ⟨i 0, i 1, eq_ix2 i⟩
  rw [Cert.HostSpec.reference_apply]
  unfold Cert.KernelIdeal.Whole.rowsOut
  refine congrArg (fun l => logSoftmax l o) ?_
  refine congrArg (logit _ _) (funext fun q => ?_)
  exact shapeCast_a_1a_apply _ _ (0 : Fin 1) q

end KernelValue

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run m ρ)

theorem preserves : Cert.preserves_Kernel_KernelIdeal := trivial

/-- Both programs end with their result at `HostSpec.reference` of the arguments, which agree. -/
theorem algebraic : Cert.algebraic_KernelIdeal_ReferenceIdeal := by
  intro m ρ m' ρ' _ hagree
  refine ⟨fun c => Cert.HostSpec.reference (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans ((Cert.KernelIdeal.Whole.final m c).trans (kernel_value m c)), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.RunP.run m' ρ')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
